-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S8x64000 : Shape := ⟨2, ![8, 64000]⟩
abbrev S8x128x128 : Shape := ⟨3, ![8, 128, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x64000 : S_.BroadcastsInDim S8x64000 (![] : Fin 0 → Fin S8x64000.rank)
  reducesTo_S8x64000_S_d0_1 : S8x64000.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S8x64000 32) (main_arg2 : IVec S8x64000 32) (main_arg3 : FVec F S8x64000 .f32) (main_arg4 : FVec F S8x128x128 .f32) (main_arg5 : FVec F S128x128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x64000 .f32 := Host.absf main_arg3
  let main_cst_0 : FVec F S_ .f32 := constant S_ .f32 0x7F800000#32
  let main_v5 : FVec F S8x64000 .f32 := broadcastInDim S8x64000 ![] bcast_S_S8x64000 main_cst_0
  let main_v6 : IVec S8x64000 1 := cmpf .olt main_v4 main_v5
  let main_c_1 : IVec S_ 1 := constantI S_ 1 1#1
  let main_v7 : IVec S_ 1 := (fun x v => Host.reduce IntOp.andi x v reducesTo_S8x64000_S_d0_1 h_S_) main_v6 main_c_1
  let main_v8 : IVec S_ 1 := andi main_v3 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S50000x128 : Shape := ⟨2, ![50000, 128]⟩
abbrev S8x64000 : Shape := ⟨2, ![8, 64000]⟩
abbrev S8x128x128 : Shape := ⟨3, ![8, 128, 128]⟩
abbrev S128x128 : Shape := ⟨2, ![128, 128]⟩
abbrev S128 : Shape := ⟨1, ![128]⟩
abbrev S_ : Shape := ⟨0, ![]⟩
abbrev S8x64000x1 : Shape := ⟨3, ![8, 64000, 1]⟩
abbrev S8x64000x128 : Shape := ⟨3, ![8, 64000, 128]⟩
abbrev S1x16000x128 : Shape := ⟨3, ![1, 16000, 128]⟩
abbrev S1x128x128 : Shape := ⟨3, ![1, 128, 128]⟩
abbrev S16000x128 : Shape := ⟨2, ![16000, 128]⟩
abbrev S512000x128 : Shape := ⟨2, ![512000, 128]⟩
abbrev S512000 : Shape := ⟨1, ![512000]⟩
abbrev S512000x1 : Shape := ⟨2, ![512000, 1]⟩
abbrev S1x128 : Shape := ⟨2, ![1, 128]⟩
abbrev S5000x128 : Shape := ⟨2, ![5000, 128]⟩

abbrev nBuf : Space → Nat
  | .hbm => 34
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S8x64000, .i32⟩
  | .hbm, ⟨2, _⟩ => ⟨S8x64000, .i32⟩
  | .hbm, ⟨3, _⟩ => ⟨S8x64000, .f32⟩
  | .hbm, ⟨4, _⟩ => ⟨S8x128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S50000x128, .bf16⟩
  | .hbm, ⟨9, _⟩ => ⟨S_, .i32⟩
  | .hbm, ⟨10, _⟩ => ⟨S8x64000, .i32⟩
  | .hbm, ⟨11, _⟩ => ⟨S8x64000, .i1⟩
  | .hbm, ⟨12, _⟩ => ⟨S_, .i32⟩
  | .hbm, ⟨13, _⟩ => ⟨S8x64000, .i32⟩
  | .hbm, ⟨14, _⟩ => ⟨S8x64000, .i32⟩
  | .hbm, ⟨15, _⟩ => ⟨S8x64000, .i32⟩
  | .hbm, ⟨16, _⟩ => ⟨S8x64000x1, .i32⟩
  | .hbm, ⟨17, _⟩ => ⟨S8x64000x128, .bf16⟩
  | .hbm, ⟨18, _⟩ => ⟨S8x64000x128, .f32⟩
  | .hbm, ⟨19, _⟩ => ⟨S8x64000x1, .f32⟩
  | .hbm, ⟨20, _⟩ => ⟨S8x64000x128, .f32⟩
  | .hbm, ⟨21, _⟩ => ⟨S8x64000x128, .f32⟩
  | .hbm, ⟨22, _⟩ => ⟨S8x64000x128, .bf16⟩
  | .hbm, ⟨23, _⟩ => ⟨S8x128x128, .bf16⟩
  | .hbm, ⟨24, _⟩ => ⟨S8x64000x128, .f32⟩
  | .hbm, ⟨25, _⟩ => ⟨S512000x128, .f32⟩
  | .hbm, ⟨26, _⟩ => ⟨S512000, .i32⟩
  | .hbm, ⟨27, _⟩ => ⟨S_, .f32⟩
  | .hbm, ⟨28, _⟩ => ⟨S50000x128, .f32⟩
  | .hbm, ⟨29, _⟩ => ⟨S512000x1, .i32⟩
  | .hbm, ⟨30, _⟩ => ⟨S50000x128, .f32⟩
  | .hbm, ⟨31, _⟩ => ⟨S1x128, .f32⟩
  | .hbm, ⟨32, _⟩ => ⟨S1x128, .f32⟩
  | .hbm, ⟨33, _⟩ => ⟨S50000x128, .f32⟩
  | .local _ .vmem, ⟨0, _⟩ => ⟨S1x16000x128, .bf16⟩
  | .local _ .vmem, ⟨1, _⟩ => ⟨S1x16000x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x16000x128, .f32⟩
  | .local _ .vmem, ⟨5, _⟩ => ⟨S1x16000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  bcast_S_S8x64000 : S_.BroadcastsInDim S8x64000 (![] : Fin 0 → Fin S8x64000.rank)
  bcast_S8x64000_S8x64000x1_0_1 : S8x64000.BroadcastsInDim S8x64000x1 (![0, 1] : Fin 2 → Fin S8x64000x1.rank)
  bcast_S8x64000x1_S8x64000x128_0_1_2 : S8x64000x1.BroadcastsInDim S8x64000x128 (![0, 1, 2] : Fin 3 → Fin S8x64000x128.rank)
  inb_S1x16000x128_S1x16000x128_0_0_0 : ∀ a, (![0, 0, 0] : Fin 3 → Nat) a + S1x16000x128.size a ≤ S1x16000x128.size a
  h_S1x16000x128 : 0 < S1x16000x128.numel
  shapeCasts_S1x16000x128_S16000x128 : S1x16000x128.ShapeCasts S16000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S16000x128_S1x16000x128 : S16000x128.ShapeCasts S1x16000x128
  shapeCasts_S8x64000x128_S512000x128 : S8x64000x128.ShapeCasts S512000x128
  shapeCasts_S8x64000_S512000 : S8x64000.ShapeCasts S512000
  bcast_S_S50000x128 : S_.BroadcastsInDim S50000x128 (![] : Fin 0 → Fin S50000x128.rank)
  bcast_S512000_S512000x1_0 : S512000.BroadcastsInDim S512000x1 (![0] : Fin 1 → Fin S512000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  gather_S50000x128_S8x64000x1_S8x64000x128_2_0_n_n_0_2_1128_wf : GatherDims.WF S50000x128 S8x64000x1 S8x64000x128 [2] [0] [] [0] [] 2 ![1, 128]
  dot_S16000x128_S128x128_S16000x128_1_0_0_1_n_n_wf : DotDims.WF S16000x128 S128x128 S16000x128 [1] [0] [0] [1] [] []
  scatter_S50000x128_S512000x1_S512000x128_1_0_0_1_wf : ScatterDims.WF S50000x128 S512000x1 S512000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16000x128.size a ≤ S8x64000x128.size a
  hwx0_0 : ∀ i : grid0.Coords, EltTy.bits .bf16 = 32 ∨ (Rect.block (s := S8x64000x128) S1x16000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .bf16 = 32 ∨ (Rect.block (s := S8x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000x128.size a ≤ S8x64000x128.size a
  hwx0_2 : ∀ i : grid0.Coords, EltTy.bits .f32 = 32 ∨ (Rect.block (s := S8x64000x128) S1x16000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S8x64000x1_S8x64000x128_2_0_n_n_0_2_1128 : GatherDims S50000x128 S8x64000x1 S8x64000x128 where
  offsetDims := [2]
  collapsedSliceDims := [0]
  operandBatchingDims := []
  startIndicesBatchingDims := []
  startIndexMap := [0]
  indexVectorDim := 2
  sliceSizes := ![1, 128]
  wf := gather_S50000x128_S8x64000x1_S8x64000x128_2_0_n_n_0_2_1128_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S1x16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S8x64000 : Shape := ⟨2, ![8, 64000]⟩
abbrev S8x128x128 : Shape := ⟨3, ![8, 128, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S8x64000x1 : Shape := ⟨3, ![8, 64000, 1]⟩
abbrev S8x64000x128 : Shape := ⟨3, ![8, 64000, 128]⟩
abbrev S512000x128 : Shape := ⟨2, ![512000, 128]⟩
abbrev S512000 : Shape := ⟨1, ![512000]⟩
abbrev S512000x1 : Shape := ⟨2, ![512000, 1]⟩

abbrev nBuf : Space → Nat
  | .hbm => 38
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S8x64000, .i32⟩
  | .hbm, ⟨2, _⟩ => ⟨S8x64000, .i32⟩
  | .hbm, ⟨3, _⟩ => ⟨S8x64000, .f32⟩
  | .hbm, ⟨4, _⟩ => ⟨S8x128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S_, .i32⟩
  | .hbm, ⟨13, _⟩ => ⟨S8x64000, .i32⟩
  | .hbm, ⟨14, _⟩ => ⟨S8x64000, .i1⟩
  | .hbm, ⟨15, _⟩ => ⟨S_, .i32⟩
  | .hbm, ⟨16, _⟩ => ⟨S8x64000, .i32⟩
  | .hbm, ⟨17, _⟩ => ⟨S8x64000, .i32⟩
  | .hbm, ⟨18, _⟩ => ⟨S8x64000, .i32⟩
  | .hbm, ⟨19, _⟩ => ⟨S8x64000x1, .i32⟩
  | .hbm, ⟨20, _⟩ => ⟨S8x64000x128, .f32⟩
  | .hbm, ⟨21, _⟩ => ⟨S8x64000x128, .f32⟩
  | .hbm, ⟨22, _⟩ => ⟨S8x64000x1, .f32⟩
  | .hbm, ⟨23, _⟩ => ⟨S8x64000x128, .f32⟩
  | .hbm, ⟨24, _⟩ => ⟨S8x64000x128, .f32⟩
  | .hbm, ⟨25, _⟩ => ⟨S512000x128, .f32⟩
  | .hbm, ⟨26, _⟩ => ⟨S512000, .i32⟩
  | .hbm, ⟨27, _⟩ => ⟨S_, .f32⟩
  | .hbm, ⟨28, _⟩ => ⟨S50000x128, .f32⟩
  | .hbm, ⟨29, _⟩ => ⟨S512000x1, .i32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8x64000 : S_.BroadcastsInDim S8x64000 (![] : Fin 0 → Fin S8x64000.rank)
  bcast_S8x64000_S8x64000x1_0_1 : S8x64000.BroadcastsInDim S8x64000x1 (![0, 1] : Fin 2 → Fin S8x64000x1.rank)
  bcast_S8x64000x1_S8x64000x128_0_1_2 : S8x64000x1.BroadcastsInDim S8x64000x128 (![0, 1, 2] : Fin 3 → Fin S8x64000x128.rank)
  shapeCasts_S8x64000x128_S512000x128 : S8x64000x128.ShapeCasts S512000x128
  shapeCasts_S8x64000_S512000 : S8x64000.ShapeCasts S512000
  bcast_S_S50000x128 : S_.BroadcastsInDim S50000x128 (![] : Fin 0 → Fin S50000x128.rank)
  bcast_S512000_S512000x1_0 : S512000.BroadcastsInDim S512000x1 (![0] : Fin 1 → Fin S512000x1.rank)
  dot_S50000x128_S128x128_S50000x128_1_0_0_1_n_n_wf : DotDims.WF S50000x128 S128x128 S50000x128 [1] [0] [0] [1] [] []
  gather_S50000x128_S8x64000x1_S8x64000x128_2_0_n_n_0_2_1128_wf : GatherDims.WF S50000x128 S8x64000x1 S8x64000x128 [2] [0] [] [0] [] 2 ![1, 128]
  dot_S8x64000x128_S8x128x128_S8x64000x128_2_1_1_2_0_0_wf : DotDims.WF S8x64000x128 S8x128x128 S8x64000x128 [2] [1] [1] [2] [0] [0]
  scatter_S50000x128_S512000x1_S512000x128_1_0_0_1_wf : ScatterDims.WF S50000x128 S512000x1 S512000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S8x64000x1_S8x64000x128_2_0_n_n_0_2_1128 : GatherDims S50000x128 S8x64000x1 S8x64000x128 where
  offsetDims := [2]
  collapsedSliceDims := [0]
  operandBatchingDims := []
  startIndicesBatchingDims := []
  startIndexMap := [0]
  indexVectorDim := 2
  sliceSizes := ![1, 128]
  wf := gather_S50000x128_S8x64000x1_S8x64000x128_2_0_n_n_0_2_1128_wf
def dot_S8x64000x128_S8x128x128_S8x64000x128_2_1_1_2_0_0 : DotDims S8x64000x128 S8x128x128 S8x64000x128 where
  lhsContracting := [2]
  rhsContracting := [1]
  lhsNonContracting := [1]
  rhsNonContracting := [2]
  lhsBatch := [0]
  rhsBatch := [0]
  wf := dot_S8x64000x128_S8x128x128_S8x64000x128_2_1_1_2_0_0_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf

class Facts : Prop extends Facts₀ where

variable [Facts]
-- ==== Proof.KernelRun.lean ====
/-
  The idealized kernel's run with its result kept.

  @main is four segments: the host operations that gather, scale and convert the rows (a stretch), the relation
  product (a region), the host operations that add the messages into their target rows and lay out the two bias rows
  (a stretch), and the root product with its additions and the clamp at zero (a region). The buffer contents at
  the segment boundaries are a fold from the launch memory; the run ends with every buffer that outlives the regions
  at the last boundary's contents. Read at the result buffer, that is what the second region's write-backs leave in it;
  read at an argument, it is the argument as launched.
-/
import proofs.«130583_j69647189672496_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the second
    region's write-backs leave in its array (the region entered from the contents after the second stretch of host
    operations) and every argument as launched. -/
theorem run : θ_run defs (onTc (τ := τ) (main (F := F))) ⟨m, fun _ => 0, ρ⟩ (fun r => ∀ c : Dev nD,
      r.2.mem ((c.tc : Thread nD τ).loc main_v22) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v22 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Payloads.lean ====
/-
  The two kernel bodies read at an index, over the extended reals.

  The relation body multiplies its block of scaled gathered rows, a [1, 16000, 128] slab read as a 16000 x 128 matrix, by
  its relation's 128 x 128 weight matrix (a [1, 128, 128] slab): entry (p, q) of what it stores is
  the sum over k of rows(p, k) * weight(k, q).
  The root body multiplies its 5000 x 128 block of node features by the whole root matrix, adds the root bias row, the
  block of summed messages and the output bias row, in that order, and clamps at zero: entry (p, q) of what it stores
  is  max(((sum over k of x(p, k) * w(k, q) + rb(0, q)) + agg(p, q)) + b(0, q), 0).
  A change of float format is the identity on the extended reals.
-/
import proofs.«130583_j69647189672496_2_alg».proof.Proof.Gen.KernelIdeal.Skeleton
import proofs.«130583_j69647189672496_2_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen
open Idealize.ShloMosaic Idealize.ShloMosaic.ValueIdx

/-- The relation body's stored slab at (u, p, q): row p of the block of scaled rows against column q of the
    relation's weight matrix. -/
theorem msg_block_apply (x0 : Vec Ideal S1x16000x128 .bf16) (x1 : Vec Ideal S1x128x128 .bf16)
    (u : Fin 1) (p : Fin 16000) (q : Fin 128) :
    k0_pay1 (F := Ideal) x0 x1 (ix3 u p q)
      = ∑ k : Fin 128, x0 (ix3 (0 : Fin 1) p k) * x1 (ix3 (0 : Fin 1) k q) := by
  unfold k0_pay1
  rw [shapeCast_ab_1ab_apply]
  unfold matmul
  rw [Cert.LibMatmulPlain.matmul_plain_zero_apply dot_S16000x128_S128x128_S16000x128_1_0_0_1_n_n rfl]
  refine Finset.sum_congr rfl fun k _ => ?_
  rw [shapeCast_1ab_ab_apply, shapeCast_1ab_ab_apply]

/-- The root body's stored block at (p, q): the root product's entry, plus the root bias, plus the summed
    messages, plus the output bias, clamped at zero. -/
theorem out_block_apply (x0 : Vec Ideal S5000x128 .f32) (x1 : Vec Ideal S128x128 .f32) (x2 : Vec Ideal S1x128 .f32)
    (x4 : Vec Ideal S5000x128 .f32) (x6 : Vec Ideal S1x128 .f32) (p : Fin 5000) (q : Fin 128) :
    k1_pay1 (F := Ideal) x0 x1 x2 x4 x6 (ix2 p q)
      = max ((((∑ k : Fin 128, x0 (ix2 p k) * x1 (ix2 k q)) + x2 (ix2 (0 : Fin 1) q)) + x4 (ix2 p q))
          + x6 (ix2 (0 : Fin 1) q)) (Ideal.ofBits .f32 0x00000000#32) := by
  unfold k1_pay1 matmul
  rw [maximumf_apply, addf_apply, addf_apply, addf_apply, broadcast_apply,
    Cert.LibMatmulPlain.matmul_plain_zero_apply dot_S5000x128_S128x128_S5000x128_1_0_0_1_n_n rfl,
    broadcastTo_1b_ab_apply, broadcastTo_1b_ab_apply,
    shapeCast_self, shapeCast_self, shapeCast_self]
  rfl

end Cert.KernelIdeal.Payloads

end
-- ==== Proof.Region0.lean ====
/-
  The relation product as one array.

  The first kernel region runs over 8 relations times 4 edge tiles. At point (r, e) it reads rows
  16000 e .. 16000 e + 15999 of relation r's scaled gathered rows and the whole of relation r's weight matrix, and
  writes back the product as rows 16000 e .. 16000 e + 15999 of relation r's messages. The 32 blocks tile the
  [8, 64000, 128] message array, so after the region the array holds, at (r, n, o),

      sum over k < 128 of rows(r, n, k) * weight(r, k, o)

  of the two arrays as the region finds them.
-/
import proofs.«130583_j69647189672496_2_alg».proof.Proof.Gen.KernelIdeal.Frame
import proofs.«130583_j69647189672496_2_alg».proof.Proof.Payloads
import Idealize.ShloMosaic.Lib.Pipeline.Value

set_option maxRecDepth 16384

noncomputable section

open scoped BigOperators

namespace Cert.KernelIdeal.Region0

open Cert.KernelIdeal Cert.KernelIdeal.Gen Cert.KernelIdeal.Payloads
open Idealize.ShloMosaic Idealize.ShloMosaic.TcCoe Idealize.ShloMosaic.ValueIdx
open Idealize.SL.Sem
open Idealize.ShloMosaic.Pipeline (Dat)

/-- The batched product of the scaled rows [8, 64000, 128] with the weights [8, 128, 128]: one matrix product per
    relation, contracted over the rows' last axis and the weights' middle axis. -/
def msgOf (xs : S8x64000x128.Idx → EReal) (w : S8x128x128.Idx → EReal) : S8x64000x128.Idx → EReal :=
  fun i => ∑ k : Fin 128, xs (ix3 (i 0 : Fin 8) (i 1 : Fin 64000) k) * w (ix3 (i 0 : Fin 8) k (i 2 : Fin 128))

/-- One stored entry against one entry of the whole product: when row (y 1) of the rows' block is row (i 0, i 1) of
    the array and column (y 2) of the weights' block is column (i 0, ., i 2) of the array, the body's entry at y is the
    product's entry at i. -/
theorem block_eq (XS : S8x64000x128.Idx → EReal) (Wt : S8x128x128.Idx → EReal)
    (x0 : Vec Ideal S1x16000x128 .bf16) (x1 : Vec Ideal S1x128x128 .bf16)
    (y : S1x16000x128.Idx) (i : S8x64000x128.Idx)
    (h0 : ∀ k : Fin 128, x0 (ix3 (0 : Fin 1) (y 1 : Fin 16000) k) = XS (ix3 (i 0 : Fin 8) (i 1 : Fin 64000) k))
    (h1 : ∀ k : Fin 128, x1 (ix3 (0 : Fin 1) k (y 2 : Fin 128)) = Wt (ix3 (i 0 : Fin 8) k (i 2 : Fin 128))) :
    k0_pay1 (F := Ideal) x0 x1 y = msgOf XS Wt i := by
  obtain ⟨u, p, q, rfl⟩ : ∃ (u : Fin 1) (p : Fin 16000) (q : Fin 128), y = ix3 u p q := ⟨y 0, y 1, y 2, eq_ix3 y⟩
  rw [msg_block_apply]
  exact Finset.sum_congr rfl fun k _ => congrArg₂ (· * ·) (h0 k) (h1 k)

variable (V : (c : Dev nD) → (b : Ref sig .tc) → Buf (Elt Ideal) ((c : Thread nD τ).loc b))

theorem zeros3 : (![0, 0, 0] : Fin 3 → Nat) = fun _ => 0 := funext fun a => by fin_cases a <;> rfl

/-- The printed index maps over the 32 grid points: the rows' block moves with the output's block, the weights' block
    follows its relation only, and the output's block indices stay in range. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 7
    ∧ win0_2.index t (1 : Fin 3) ≤ 3
    ∧ win0_2.index t (2 : Fin 3) = 0 :=
  (by decide +kernel : ∀ t : Fin grid0.N, _)

/-- Every (relation, edge tile) pair is some point's output block. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- What point t writes back is block t of the whole product of the arrays as the region finds them. -/
theorem flushed_eq (c : Dev nD) (t : Fin cfg0.N) :
    (dat0 V c).flushed 2 t
      = ((cfg0.win 2).blk t).view.read (Elt Ideal) (msgOf (V c main_v12) (V c main_v13)) := by
  show (cfg0.win 2).cut (grid0.coords t) ((dat0 V c).after 2 t) = _
  rw [after0_2]
  unfold out0_2
  rw [View.canon_unit_zero zeros3]
  simp only [View.ld_unit_zero (S := S1x16000x128) zeros3, View.ld_unit_zero (S := S1x128x128) zeros3]
  obtain ⟨e0, e1, e2, e3, e4, e5, e6, e7, e8⟩ := idx_facts t
  funext j
  show k0_pay1 (F := Ideal) (iblk0 V c 0 t) (iblk0 V c 1 t) j
    = msgOf (V c main_v12) (V c main_v13) (((cfg0.win 2).blk t).view.emb j)
  refine block_eq (V c main_v12) (V c main_v13) (iblk0 V c 0 t) (iblk0 V c 1 t) j (((cfg0.win 2).blk t).view.emb j)
    (fun k => ?_) (fun k => ?_)
  · show V c main_v12 (((cfg0.win 0).blk t).view.emb (ix3 (0 : Fin 1) (j 1 : Fin 16000) k)) = _
    refine congrArg (V c main_v12) (funext fun a => Fin.ext ?_)
    match a with
    | ⟨0, _⟩ =>
      show win0_0.index t (0 : Fin 3) * 1 + 1 * 0 = win0_2.index t (0 : Fin 3) * 1 + 1 * (j 0).val
      have hj : (j 0).val < 1 := (j 0).isLt
      omega
    | ⟨1, _⟩ =>
      show win0_0.index t (1 : Fin 3) * 16000 + 1 * (j 1).val = win0_2.index t (1 : Fin 3) * 16000 + 1 * (j 1).val
      omega
    | ⟨2, _⟩ =>
      show win0_0.index t (2 : Fin 3) * 128 + 1 * k.val = k.val
      omega
  · show V c main_v13 (((cfg0.win 1).blk t).view.emb (ix3 (0 : Fin 1) k (j 2 : Fin 128))) = _
    refine congrArg (V c main_v13) (funext fun a => Fin.ext ?_)
    match a with
    | ⟨0, _⟩ =>
      show win0_1.index t (0 : Fin 3) * 1 + 1 * 0 = win0_2.index t (0 : Fin 3) * 1 + 1 * (j 0).val
      have hj : (j 0).val < 1 := (j 0).isLt
      omega
    | ⟨1, _⟩ =>
      show win0_1.index t (1 : Fin 3) * 128 + 1 * k.val = k.val
      omega
    | ⟨2, _⟩ =>
      show win0_1.index t (2 : Fin 3) * 128 + 1 * (j 2).val = win0_2.index t (2 : Fin 3) * 128 + 1 * (j 2).val
      omega

/-- An index of the message array is in point t's block iff each coordinate is in the block's range on its axis. -/
theorem mem_blk (t : Fin cfg0.N) (i : S8x64000x128.Idx) :
    i ∈ ((cfg0.win 2).blk t).view.set ↔ ∀ a : Fin 3, win0_2.index t a * S1x16000x128.size a ≤ (i a).val
      ∧ (i a).val < win0_2.index t a * S1x16000x128.size a + S1x16000x128.size a := by
  show i ∈ ((View.whole main_v14).slice (win0_2.rect t)).set ↔ _
  rw [View.set_slice_whole, Rect.mem_set_unit]
  exact Iff.rfl

/-- The 32 output blocks cover the message array: entry (r, n, o) is in the block of relation r and tile n / 16000. -/
theorem cover (i : S8x64000x128.Idx) :
    ∃ t : Fin cfg0.N, (cfg0.win 2).flush t = true ∧ i ∈ ((cfg0.win 2).blk t).view.set := by
  have hi0 : (i 0).val < 8 := (i 0).isLt
  have hi1 : (i 1).val < 64000 := (i 1).isLt
  have hi2 : (i 2).val < 128 := (i 2).isLt
  obtain ⟨t, ht⟩ := idx_onto ⟨(i 0).val, hi0⟩ ⟨(i 1).val / 16000, by omega⟩
  have q0 : win0_2.index t (0 : Fin 3) = (i 0).val := congrFun ht 0
  have q1 : win0_2.index t (1 : Fin 3) = (i 1).val / 16000 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 16000 ≤ (i 1).val ∧ (i 1).val < win0_2.index t (1 : Fin 3) * 16000 + 16000
    omega
  | ⟨2, _⟩ =>
    show win0_2.index t (2 : Fin 3) * 128 ≤ (i 2).val ∧ (i 2).val < win0_2.index t (2 : Fin 3) * 128 + 128
    omega

/-- After the region the message array is the whole product of the two arrays as the region finds them. -/
theorem final (c : Dev nD) :
    (dat0 V c).arrAt 2 cfg0.N = msgOf (V c main_v12) (V c main_v13) :=
  (dat0 V c).arrAt_eq_of_cover 2 (msgOf (V c main_v12) (V c main_v13)) (fun t _ => flushed_eq V c t) (cover)

end Cert.KernelIdeal.Region0

end
-- ==== Proof.Region1.lean ====
/-
  The root layer's output as one array.

  The second kernel region runs over 10 blocks of 5000 node rows. At point t it reads rows 5000 t .. 5000 t + 4999 of
  the node features and of the summed messages, the whole root matrix and the two bias rows, and writes back rows
  5000 t .. 5000 t + 4999 of the result. The 10 blocks tile the [50000, 128] result, so after the region it holds, at
  (n, o),

      max(((sum over k < 128 of x(n, k) * w(k, o) + rb(0, o)) + agg(n, o)) + b(0, o), 0)

  of the five arrays as the region finds them.
-/
import proofs.«130583_j69647189672496_2_alg».proof.Proof.Gen.KernelIdeal.Frame
import proofs.«130583_j69647189672496_2_alg».proof.Proof.Payloads
import Idealize.ShloMosaic.Lib.Pipeline.Value

set_option maxRecDepth 16384

noncomputable section

open scoped BigOperators

namespace Cert.KernelIdeal.Region1

open Cert.KernelIdeal Cert.KernelIdeal.Gen Cert.KernelIdeal.Payloads
open Idealize.ShloMosaic Idealize.ShloMosaic.TcCoe Idealize.ShloMosaic.ValueIdx
open Idealize.SL.Sem
open Idealize.ShloMosaic.Pipeline (Dat)

/-- The root layer on whole arrays: the node features times the root matrix, plus the root bias row, plus the summed
    messages, plus the output bias row, clamped at zero. -/
def rootOf (x : S50000x128.Idx → EReal) (w : S128x128.Idx → EReal) (rb : S1x128.Idx → EReal)
    (agg : S50000x128.Idx → EReal) (b : S1x128.Idx → EReal) : S50000x128.Idx → EReal :=
  fun i => max ((((∑ k : Fin 128, x (ix2 (i 0 : Fin 50000) k) * w (ix2 k (i 1 : Fin 128)))
      + rb (ix2 (0 : Fin 1) (i 1 : Fin 128))) + agg i) + b (ix2 (0 : Fin 1) (i 1 : Fin 128)))
    (Ideal.ofBits .f32 0x00000000#32)

/-- One stored entry against one entry of the whole layer: when row (y 0) of the features' and the messages' blocks
    is row (i 0) of their arrays, the root matrix and the bias rows are read whole, and the columns agree, the body's
    entry at y is the layer's entry at i. -/
theorem block_eq (X : S50000x128.Idx → EReal) (Wt : S128x128.Idx → EReal) (RB : S1x128.Idx → EReal)
    (AGG : S50000x128.Idx → EReal) (B : S1x128.Idx → EReal)
    (x0 : Vec Ideal S5000x128 .f32) (x1 : Vec Ideal S128x128 .f32) (x2 : Vec Ideal S1x128 .f32)
    (x4 : Vec Ideal S5000x128 .f32) (x6 : Vec Ideal S1x128 .f32)
    (y : S5000x128.Idx) (i : S50000x128.Idx)
    (h0 : ∀ k : Fin 128, x0 (ix2 (y 0 : Fin 5000) k) = X (ix2 (i 0 : Fin 50000) k))
    (h1 : ∀ k : Fin 128, x1 (ix2 k (y 1 : Fin 128)) = Wt (ix2 k (i 1 : Fin 128)))
    (h2 : x2 (ix2 (0 : Fin 1) (y 1 : Fin 128)) = RB (ix2 (0 : Fin 1) (i 1 : Fin 128)))
    (h4 : x4 (ix2 (y 0 : Fin 5000) (y 1 : Fin 128)) = AGG i)
    (h6 : x6 (ix2 (0 : Fin 1) (y 1 : Fin 128)) = B (ix2 (0 : Fin 1) (i 1 : Fin 128))) :
    k1_pay1 (F := Ideal) x0 x1 x2 x4 x6 y = rootOf X Wt RB AGG B i := by
  obtain ⟨p, q, rfl⟩ : ∃ (p : Fin 5000) (q : Fin 128), y = ix2 p q := ⟨y 0, y 1, eq_ix2 y⟩
  rw [out_block_apply]
  have hs : (∑ k : Fin 128, x0 (ix2 p k) * x1 (ix2 k q))
      = ∑ k : Fin 128, X (ix2 (i 0 : Fin 50000) k) * Wt (ix2 k (i 1 : Fin 128)) :=
    Finset.sum_congr rfl fun k _ => congrArg₂ (· * ·) (h0 k) (h1 k)
  unfold rootOf
  rw [hs]
  exact congrArg₂ max (congrArg₂ (· + ·) (congrArg₂ (· + ·) (congrArg₂ (· + ·) rfl h2) h4) h6) rfl

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the 10 grid points: the features' and the messages' blocks move with the output's
    block, the root matrix and the bias rows are read whole, and the output's block index stays in range. -/
theorem idx_facts : ∀ t : Fin cfg1.N,
    win1_0.index t (0 : Fin 2) = win1_5.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = win1_5.index t (0 : Fin 2)
    ∧ win1_3.index t (1 : Fin 2) = 0
    ∧ win1_4.index t (0 : Fin 2) = 0
    ∧ win1_4.index t (1 : Fin 2) = 0
    ∧ win1_5.index t (0 : Fin 2) ≤ 9
    ∧ win1_5.index t (1 : Fin 2) = 0 :=
  (by decide +kernel : ∀ t : Fin grid1.N, _)

/-- Every block of 5000 rows is some point's output block. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of the whole layer of the arrays as the region finds them. -/
theorem flushed_eq (c : Dev nD) (t : Fin cfg1.N) :
    (dat1 V c).flushed 5 t
      = ((cfg1.win 5).blk t).view.read (Elt Ideal)
          (rootOf (V c main_arg0) (V c main_arg5) (V c main_v20) (V c main_v19) (V c main_v21)) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2,
    View.ld_unit_zero (S := S1x128) zeros2]
  obtain ⟨e0, e1, e2, e3, e4, e5, e6, e7, e8, e9, e10, e11⟩ := idx_facts t
  funext j
  show k1_pay1 (F := Ideal) (iblk1 V c 0 t) (iblk1 V c 1 t) (iblk1 V c 2 t) (iblk1 V c 3 t) (iblk1 V c 4 t) j
    = rootOf (V c main_arg0) (V c main_arg5) (V c main_v20) (V c main_v19) (V c main_v21)
        (((cfg1.win 5).blk t).view.emb j)
  refine block_eq (V c main_arg0) (V c main_arg5) (V c main_v20) (V c main_v19) (V c main_v21)
    (iblk1 V c 0 t) (iblk1 V c 1 t) (iblk1 V c 2 t) (iblk1 V c 3 t) (iblk1 V c 4 t) j (((cfg1.win 5).blk t).view.emb j)
    (fun k => ?_) (fun k => ?_) ?_ ?_ ?_
  · show V c main_arg0 (((cfg1.win 0).blk t).view.emb (ix2 (j 0 : Fin 5000) k)) = _
    refine congrArg (V c main_arg0) (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ =>
      show win1_0.index t (1 : Fin 2) * 128 + 1 * k.val = k.val
      omega
  · show V c main_arg5 (((cfg1.win 1).blk t).view.emb (ix2 k (j 1 : Fin 128))) = _
    refine congrArg (V c main_arg5) (funext fun a => Fin.ext ?_)
    match a with
    | ⟨0, _⟩ =>
      show win1_1.index t (0 : Fin 2) * 128 + 1 * k.val = k.val
      omega
    | ⟨1, _⟩ =>
      show win1_1.index t (1 : Fin 2) * 128 + 1 * (j 1).val = win1_5.index t (1 : Fin 2) * 128 + 1 * (j 1).val
      omega
  · show V c main_v20 (((cfg1.win 2).blk t).view.emb (ix2 (0 : Fin 1) (j 1 : Fin 128))) = _
    refine congrArg (V c main_v20) (funext fun a => Fin.ext ?_)
    match a with
    | ⟨0, _⟩ =>
      show win1_2.index t (0 : Fin 2) * 1 + 1 * 0 = 0
      omega
    | ⟨1, _⟩ =>
      show win1_2.index t (1 : Fin 2) * 128 + 1 * (j 1).val = win1_5.index t (1 : Fin 2) * 128 + 1 * (j 1).val
      omega
  · show V c main_v19 (((cfg1.win 3).blk t).view.emb (ix2 (j 0 : Fin 5000) (j 1 : Fin 128))) = _
    refine congrArg (V c main_v19) (funext fun a => Fin.ext ?_)
    match a with
    | ⟨0, _⟩ =>
      show win1_3.index t (0 : Fin 2) * 5000 + 1 * (j 0).val = win1_5.index t (0 : Fin 2) * 5000 + 1 * (j 0).val
      omega
    | ⟨1, _⟩ =>
      show win1_3.index t (1 : Fin 2) * 128 + 1 * (j 1).val = win1_5.index t (1 : Fin 2) * 128 + 1 * (j 1).val
      omega
  · show V c main_v21 (((cfg1.win 4).blk t).view.emb (ix2 (0 : Fin 1) (j 1 : Fin 128))) = _
    refine congrArg (V c main_v21) (funext fun a => Fin.ext ?_)
    match a with
    | ⟨0, _⟩ =>
      show win1_4.index t (0 : Fin 2) * 1 + 1 * 0 = 0
      omega
    | ⟨1, _⟩ =>
      show win1_4.index t (1 : Fin 2) * 128 + 1 * (j 1).val = win1_5.index t (1 : Fin 2) * 128 + 1 * (j 1).val
      omega

/-- An index of the result is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v22).slice (win1_5.rect t)).set ↔ _
  rw [View.set_slice_whole, Rect.mem_set_unit]
  exact Iff.rfl

/-- The 10 output blocks cover the result: row n is in block n / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the region the result array is the whole layer of the five arrays as the region finds them. -/
theorem final (c : Dev nD) :
    (dat1 V c).arrAt 5 cfg1.N
      = rootOf (V c main_arg0) (V c main_arg5) (V c main_v20) (V c main_v19) (V c main_v21) :=
  (dat1 V c).arrAt_eq_of_cover 5 (rootOf (V c main_arg0) (V c main_arg5) (V c main_v20) (V c main_v19) (V c main_v21))
    (fun t _ => flushed_eq V c t) (cover)

end Cert.KernelIdeal.Region1

end
-- ==== Proof.HostValues.lean ====
/-
  The kernel's result as one term of its arguments.

  Before the first region the host gathers the node rows x[src] (a negative index counted from the end, as jnp
  indexing does), scales row (r, e) by the edge weight ew(r, e) and hands the scaled rows and the relation weights to
  the region; a change of float format in between is the identity on the extended reals. Between the regions the host
  flattens the [8, 64000, 128] messages to [512000, 128] and adds row n of them into row dst(n) of a zero
  [50000, 128] array, and lays the two bias vectors out as [1, 128] rows. No host operation and no region writes an
  argument. Composing the boundaries' contents:

      result = rootOf x root_w (rowOf root_b) (aggOf dst (msgOf (scaledRows x src ew) (weightsOf weight))) (rowOf bias).
-/
import proofs.«130583_j69647189672496_2_alg».proof.Proof.Gen.KernelIdeal.Frame
import proofs.«130583_j69647189672496_2_alg».proof.Proof.Region0
import proofs.«130583_j69647189672496_2_alg».proof.Proof.Region1
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.ShloMosaic.Tactic Idealize.ShloMosaic.StableHlo
open Idealize.SL.Sem

section Terms
variable {F : FTy → Type} [FloatOps F]

/-- The gather's start indices [8, 64000, 1]: src, with 50000 added where it is negative. -/
def startIdx (src : (⟨S8x64000, .i32⟩ : BufTy).Contents (Elt F)) : (⟨S8x64000x1, .i32⟩ : BufTy).Contents (Elt F) :=
  broadcastInDim S8x64000x1 ![0, 1] bcast_S8x64000_S8x64000x1_0_1
    (select (cmpi CmpIPredicate.slt src (broadcastInDim S8x64000 ![] bcast_S_S8x64000 (constantI S_ 32 0#32)))
      (addi src (broadcastInDim S8x64000 ![] bcast_S_S8x64000 (constantI S_ 32 50000#32))) src)

/-- The gathered node rows [8, 64000, 128]. -/
def gatheredRows (x : (⟨S50000x128, .f32⟩ : BufTy).Contents (Elt F)) (src : (⟨S8x64000, .i32⟩ : BufTy).Contents (Elt F)) :
    (⟨S8x64000x128, .bf16⟩ : BufTy).Contents (Elt F) :=
  Host.gather gather_S50000x128_S8x64000x1_S8x64000x128_2_0_n_n_0_2_1128 (truncf .bf16 x bitsLt_bf16_f32) (startIdx src)

/-- The edge weights [8, 64000] spread over the 128 columns. -/
def edgeScale (ew : (⟨S8x64000, .f32⟩ : BufTy).Contents (Elt F)) : (⟨S8x64000x128, .f32⟩ : BufTy).Contents (Elt F) :=
  broadcastInDim S8x64000x128 ![0, 1, 2] bcast_S8x64000x1_S8x64000x128_0_1_2
    (broadcastInDim S8x64000x1 ![0, 1] bcast_S8x64000_S8x64000x1_0_1 ew)

/-- The gathered rows, each scaled by its edge weight: what the first region multiplies by the weights. -/
def scaledRows (x : (⟨S50000x128, .f32⟩ : BufTy).Contents (Elt F)) (src : (⟨S8x64000, .i32⟩ : BufTy).Contents (Elt F))
    (ew : (⟨S8x64000, .f32⟩ : BufTy).Contents (Elt F)) : (⟨S8x64000x128, .bf16⟩ : BufTy).Contents (Elt F) :=
  truncf .bf16 (mulf (extf .f32 (gatheredRows x src) bitsLt_bf16_f32) (edgeScale ew)) bitsLt_bf16_f32

/-- The messages added into their target rows: row n of the flattened messages into row dst(n) of zeros. -/
def aggOf (dst : (⟨S8x64000, .i32⟩ : BufTy).Contents (Elt F)) (msg : (⟨S8x64000x128, .f32⟩ : BufTy).Contents (Elt F)) :
    (⟨S50000x128, .f32⟩ : BufTy).Contents (Elt F) :=
  Host.scatterAdd scatter_S50000x128_S512000x1_S512000x128_1_0_0_1
    (broadcastInDim S50000x128 ![] bcast_S_S50000x128 (constant S_ .f32 0x00000000#32))
    (broadcastInDim S512000x1 ![0] bcast_S512000_S512000x1_0 (shapeCast S512000 dst shapeCasts_S8x64000_S512000))
    (shapeCast S512000x128 msg shapeCasts_S8x64000x128_S512000x128)

/-- The relation weights as the first region reads them (a change of float format). -/
def weightsOf (w : (⟨S8x128x128, .f32⟩ : BufTy).Contents (Elt F)) : (⟨S8x128x128, .bf16⟩ : BufTy).Contents (Elt F) :=
  truncf .bf16 w bitsLt_bf16_f32

/-- A bias vector as a [1, 128] row. -/
def rowOf (b : (⟨S128, .f32⟩ : BufTy).Contents (Elt F)) : (⟨S1x128, .f32⟩ : BufTy).Contents (Elt F) :=
  shapeCast S1x128 b shapeCasts_S128_S1x128

variable (m : (ℓ : Loc nD τ sig) → Buf (Elt F) ℓ) (ρ : Dev nD → PrngReg)

/-! ## The first region's entry contents -/

theorem rows_at_entry (c : Dev nD) :
    V1 m ρ c main_v12 = scaledRows (m ((c : Thread nD τ).loc main_arg0)) (m ((c : Thread nD τ).loc main_arg1))
      (m ((c : Thread nD τ).loc main_arg3)) := by
  show StableHlo.after hostOps0 (W0 m ρ c) (Proc.devRef .tc main_v12) = _
  after_results <;> rfl

theorem weights_at_entry (c : Dev nD) :
    V1 m ρ c main_v13 = weightsOf (m ((c : Thread nD τ).loc main_arg4)) := by
  show StableHlo.after hostOps0 (W0 m ρ c) (Proc.devRef .tc main_v13) = _
  after_results <;> rfl

/-! ## An argument at the first region's exit is the argument as launched -/

theorem dst_after_region0 (c : Dev nD) :
    W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

theorem root_b_after_region0 (c : Dev nD) :
    W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

theorem bias_after_region0 (c : Dev nD) :
    W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

/-! ## The second region's entry contents -/

theorem agg_at_entry (c : Dev nD) :
    V3 m ρ c main_v19 = aggOf (m ((c : Thread nD τ).loc main_arg2)) ((dat0 (V1 m ρ) c).arrAt 2 cfg0.N) := by
  rw [← dst_after_region0 m ρ c, ← W2_arr m ρ c 2]
  show StableHlo.after hostOps1 (W2 m ρ c) (Proc.devRef .tc main_v19) = _
  after_results <;> rfl

theorem root_b_at_entry (c : Dev nD) :
    V3 m ρ c main_v20 = rowOf (m ((c : Thread nD τ).loc main_arg6)) := by
  rw [← root_b_after_region0 m ρ c]
  show StableHlo.after hostOps1 (W2 m ρ c) (Proc.devRef .tc main_v20) = _
  after_results <;> rfl

theorem bias_at_entry (c : Dev nD) :
    V3 m ρ c main_v21 = rowOf (m ((c : Thread nD τ).loc main_arg7)) := by
  rw [← bias_after_region0 m ρ c]
  show StableHlo.after hostOps1 (W2 m ρ c) (Proc.devRef .tc main_v21) = _
  after_results <;> rfl

theorem x_at_entry (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans
    (W4_main_arg0 m ρ c)

theorem root_w_at_entry (c : Dev nD) : V3 m ρ c main_arg5 = m ((c : Thread nD τ).loc main_arg5) :=
  ((W4_arr m ρ c 1).trans (((dat1 (V3 m ρ) c).arrAt_in 1 rfl _).trans (A_eq1 (V3 m ρ) c 1))).symm.trans
    (W4_main_arg5 m ρ c)

end Terms

/-! ## The result -/

variable (m : (ℓ : Loc nD τ sig) → Buf (Elt Ideal) ℓ) (ρ : Dev nD → PrngReg)

/-- What the second region's write-backs leave in the result's array, as one term of the arguments as launched. -/
theorem result_eq (c : Dev nD) :
    (dat1 (V3 m ρ) c).arrAt 5 cfg1.N
      = Region1.rootOf (m ((c : Thread nD τ).loc main_arg0)) (m ((c : Thread nD τ).loc main_arg5))
          (rowOf (m ((c : Thread nD τ).loc main_arg6)))
          (aggOf (m ((c : Thread nD τ).loc main_arg2))
            (Region0.msgOf
              (scaledRows (m ((c : Thread nD τ).loc main_arg0)) (m ((c : Thread nD τ).loc main_arg1))
                (m ((c : Thread nD τ).loc main_arg3)))
              (weightsOf (m ((c : Thread nD τ).loc main_arg4)))))
          (rowOf (m ((c : Thread nD τ).loc main_arg7))) := by
  rw [Region1.final (V3 m ρ) c, x_at_entry m ρ c, root_w_at_entry m ρ c, root_b_at_entry m ρ c, bias_at_entry m ρ c,
    agg_at_entry m ρ c, Region0.final (V1 m ρ) c, rows_at_entry m ρ c, weights_at_entry m ρ c]

end Cert.KernelIdeal.HostValues

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.Finite.lean ====
/-
  From the precondition to real entries.

  The precondition is the conjunction, over the six float arguments, of "every entry's absolute value is below
  +infinity". On the extended reals |v| < +inf excludes exactly v = +inf and v = -inf, so each entry of those
  arguments is a real number. The law that joins the two programs needs this of the node features, the edge weights
  and the relation weights.
-/
import proofs.«130583_j69647189672496_2_alg».proof.Defs
import proofs.«130583_j69647189672496_2_alg».proof.Proof.Gen.Pre_finite_inputs
import proofs.«130583_j69647189672496_2_alg».proof.Proof.LibFiniteEntry
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic
open Cert.Pre_finite_inputs

instance : Subsingleton S_.Idx := ⟨fun a b => funext fun d => d.elim0⟩

/-- Under the precondition every entry of the node features, the edge weights and the relation weights is real. -/
theorem real_entries (a0 : FVec Ideal S50000x128 .f32) (a1 a2 : IVec S8x64000 32) (a3 : FVec Ideal S8x64000 .f32)
    (a4 : FVec Ideal S8x128x128 .f32) (a5 : FVec Ideal S128x128 .f32) (a6 a7 : FVec Ideal S128 .f32)
    (h : fn (F := Ideal) a0 a1 a2 a3 a4 a5 a6 a7 = fun _ => 1#1) :
    (∀ j, ∃ r : ℝ, a0 j = r) ∧ (∀ j, ∃ r : ℝ, a3 j = r) ∧ (∀ j, ∃ r : ℝ, a4 j = r) := by
  have h0 := congrFun h ValueIdx.ix0
  dsimp only [fn, fn_part1] at h0
  have s1 := IntOp.andi_eq_one.mp h0
  have s2 := IntOp.andi_eq_one.mp s1.1
  have s3 := IntOp.andi_eq_one.mp s2.1
  have s4 := IntOp.andi_eq_one.mp s3.1
  have s5 := IntOp.andi_eq_one.mp s4.1
  refine ⟨fun j => ?_, fun j => ?_, fun j => ?_⟩
  · exact Cert.FiniteEntry.real_of_abs_lt (Host.reduce_andi_all _ _ _ _ _ s5.1 j)
  · exact Cert.FiniteEntry.real_of_abs_lt (Host.reduce_andi_all _ _ _ _ _ s5.2 j)
  · exact Cert.FiniteEntry.real_of_abs_lt (Host.reduce_andi_all _ _ _ _ _ s4.2 j)

end Cert.Finite

end
-- ==== Proof.LibScaleOut.lean ====
/-
  A common real factor taken out of a finite sum of products, on the extended reals.

  When one program scales the rows of a matrix product's left operand by a per-row factor c BEFORE the product and
  another scales the product's rows AFTER it, one output entry reads, over k < K,

      sum_k (a k * c) * b k     against     (sum_k a k * b k) * c.

  On the extended reals the two are equal when every a k, b k and c is a real number (with an infinite entry they can
  differ: a sum with +inf and -inf terms is not the product of a sum); for real entries it is commutativity,
  associativity and distributivity in the reals, and the coercion of the reals commutes with finite sums.
-/
import Idealize.ShloMosaic.PureOps.Ideal

noncomputable section

open scoped BigOperators

namespace Cert.ScaleOut

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor common to every term of a finite sum of products of reals comes out of the sum, on whichever
    side of the product it stood. -/
theorem sum_scale_out {K : ℕ} (a b : Fin K → EReal) (c : EReal)
    (ha : ∀ k, ∃ r : ℝ, a k = r) (hb : ∀ k, ∃ r : ℝ, b k = r) (hc : ∃ r : ℝ, c = r) :
    ∑ k, (a k * c) * b k = (∑ k, a k * b k) * c := by
  choose a' ha' using ha
  choose b' hb' using hb
  obtain ⟨c', rfl⟩ := hc
  simp only [ha', hb', ← EReal.coe_mul, ← coe_sum]
  refine congrArg _ ?_
  rw [Finset.sum_mul]
  exact Finset.sum_congr rfl fun k _ => by ring

end Cert.ScaleOut

end
-- ==== Proof.Bridge.lean ====
/-
  The reference's result is the kernel's term.

  Both programs end at  max(((x root_w + root_b) + agg) + bias, 0)  with agg the messages added into their target
  rows; the root product, the two bias rows (the kernel lays them out as [1, 128] rows by a reshape, the reference by
  two broadcasts) and the clamp agree entry by entry with no algebra. They differ in the messages alone: the kernel
  forms  sum_k (rows(r, e, k) * ew(r, e)) * weight(r, k, o),  the reference  (sum_k rows(r, e, k) * weight(r, k, o)) * ew(r, e),
  with the same gathered rows. For real entries these are equal (the edge weight comes out of the sum); the gathered
  rows are entries of x, so the precondition makes them real. The scatter that adds the messages into their rows is
  the same operation of equal arrays and is never opened.
-/
import proofs.«130583_j69647189672496_2_alg».proof.Proof.Gen.ReferenceIdeal.Read
import proofs.«130583_j69647189672496_2_alg».proof.Proof.HostValues
import proofs.«130583_j69647189672496_2_alg».proof.Proof.LibScaleOut
import Idealize.ShloMosaic.Lib.ValueLayout

noncomputable section

open scoped BigOperators

namespace Cert.Bridge

open Idealize.ShloMosaic Idealize.ShloMosaic.ValueIdx
open Cert.KernelIdeal.HostValues
open Cert.KernelIdeal.Region0 (msgOf)
open Cert.KernelIdeal.Region1 (rootOf)
open Cert.ReferenceIdeal Cert.ReferenceIdeal.Read

variable (x0 : (⟨S50000x128, .f32⟩ : BufTy).Contents (Elt Ideal)) (x1 x2 : (⟨S8x64000, .i32⟩ : BufTy).Contents (Elt Ideal))
  (x3 : (⟨S8x64000, .f32⟩ : BufTy).Contents (Elt Ideal)) (x4 : (⟨S8x128x128, .f32⟩ : BufTy).Contents (Elt Ideal))
  (x5 : (⟨S128x128, .f32⟩ : BufTy).Contents (Elt Ideal)) (x6 x7 : (⟨S128, .f32⟩ : BufTy).Contents (Elt Ideal))

/-- The scatter of the reference is the kernel's: the same operation of the same zero array, the same target rows and
    the flattened messages. -/
theorem agg_eq : val_main_v19 (F := Ideal) x0 x1 x2 x3 x4 = aggOf x2 (val_main_v14 (F := Ideal) x0 x1 x3 x4) := rfl

/-- The kernel's scaled rows at an entry: the reference's gathered row entry times the edge weight spread over the
    columns (a change of float format is the identity). -/
theorem scaledRows_apply (j : S8x64000x128.Idx) :
    scaledRows (F := Ideal) x0 x1 x3 j = val_main_v10 (F := Ideal) x0 x1 j * val_main_v13 (F := Ideal) x3 j := rfl

/-- The messages agree when the node features, the edge weights and the relation weights are real. -/
theorem msg_eq (hx0 : ∀ j, ∃ r : ℝ, x0 j = r) (hx3 : ∀ j, ∃ r : ℝ, x3 j = r) (hx4 : ∀ j, ∃ r : ℝ, x4 j = r) :
    msgOf (scaledRows (F := Ideal) x0 x1 x3) (weightsOf (F := Ideal) x4) = val_main_v14 (F := Ideal) x0 x1 x3 x4 := by
  funext i
  rw [val_main_v14_apply, val_main_v11_apply, val_main_v13_apply, val_main_v12_apply]
  have hl : ∀ k : Fin 128, lidx_main_v11 i k = ix3 (i 0 : Fin 8) (i 1 : Fin 64000) k := fun k =>
    funext fun a => Fin.ext (by match a with | ⟨0, _⟩ => rfl | ⟨1, _⟩ => rfl | ⟨2, _⟩ => rfl)
  have hr : ∀ k : Fin 128, ridx_main_v11 i k = ix3 (i 0 : Fin 8) k (i 2 : Fin 128) := fun k =>
    funext fun a => Fin.ext (by match a with | ⟨0, _⟩ => rfl | ⟨1, _⟩ => rfl | ⟨2, _⟩ => rfl)
  have hs : ∀ k : Fin 128, val_main_v13 (F := Ideal) x3 (ix3 (i 0 : Fin 8) (i 1 : Fin 64000) k)
      = x3 (idx_main_v12 (idx_main_v13 i)) := fun k => by
    rw [val_main_v13_apply, val_main_v12_apply]
  simp only [hl, hr]
  have key := Cert.ScaleOut.sum_scale_out
    (fun k : Fin 128 => val_main_v10 (F := Ideal) x0 x1 (ix3 (i 0 : Fin 8) (i 1 : Fin 64000) k))
    (fun k : Fin 128 => x4 (ix3 (i 0 : Fin 8) k (i 2 : Fin 128)))
    (x3 (idx_main_v12 (idx_main_v13 i)))
    (fun k => hx0 _) (fun k => hx4 _) (hx3 _)
  refine Eq.trans ?_ key
  unfold msgOf
  refine Finset.sum_congr rfl fun k _ => ?_
  show scaledRows (F := Ideal) x0 x1 x3 (ix3 (i 0 : Fin 8) (i 1 : Fin 64000) k) * x4 (ix3 (i 0 : Fin 8) k (i 2 : Fin 128)) = _
  rw [scaledRows_apply, hs k]

/-- THE BRIDGE: the reference's result is the root layer of the arguments, the bias rows and the kernel's summed
    messages. -/
theorem reference_eq (hx0 : ∀ j, ∃ r : ℝ, x0 j = r) (hx3 : ∀ j, ∃ r : ℝ, x3 j = r) (hx4 : ∀ j, ∃ r : ℝ, x4 j = r) :
    val_main_v24 (F := Ideal) x0 x1 x2 x3 x4 x5 x6 x7
      = rootOf x0 x5 (rowOf (F := Ideal) x6)
          (aggOf x2 (msgOf (scaledRows (F := Ideal) x0 x1 x3) (weightsOf (F := Ideal) x4))) (rowOf (F := Ideal) x7) := by
  rw [msg_eq x0 x1 x3 x4 hx0 hx3 hx4, ← agg_eq x0 x1 x2 x3 x4]
  refine funext fun (i : S50000x128.Idx) => ?_
  have r6 : rowOf (F := Ideal) x6 (ix2 (0 : Fin 1) (i 1 : Fin 128)) = x6 (ix1 (i 1 : Fin 128)) :=
    shapeCast_a_1a_apply x6 _ 0 _
  have r7 : rowOf (F := Ideal) x7 (ix2 (0 : Fin 1) (i 1 : Fin 128)) = x7 (ix1 (i 1 : Fin 128)) :=
    shapeCast_a_1a_apply x7 _ 0 _
  rw [val_main_v24_apply, val_main_v23_apply, val_main_v20_apply, val_main_v3_apply, val_main_v0_apply,
    val_main_v2_apply, val_main_v1_apply, val_main_v22_apply, val_main_v21_apply, val_main_call0_v0_apply,
    val_main_call0_cst_apply]
  unfold rootOf
  rw [r6, r7]
  have e1 : ∀ k : Fin 128, lidx_main_v0 i k = ix2 (i 0 : Fin 50000) k := fun k =>
    funext fun a => Fin.ext (by match a with | ⟨0, _⟩ => rfl | ⟨1, _⟩ => rfl)
  have e2 : ∀ k : Fin 128, ridx_main_v0 i k = ix2 k (i 1 : Fin 128) := fun k =>
    funext fun a => Fin.ext (by match a with | ⟨0, _⟩ => rfl | ⟨1, _⟩ => rfl)
  have e3 : idx_main_v1 (idx_main_v2 i) = ix1 (i 1 : Fin 128) :=
    funext fun a => Fin.ext (by match a with | ⟨0, _⟩ => rfl)
  have e4 : idx_main_v21 (idx_main_v22 i) = ix1 (i 1 : Fin 128) :=
    funext fun a => Fin.ext (by match a with | ⟨0, _⟩ => rfl)
  simp only [e1, e2, e3, e4]
  rfl

end Cert.Bridge

end
-- ==== Proof.lean ====
/-
  A relational graph layer on 50000 nodes, 8 relations of 64000 edges each and 128 features:

      out = max(((x root_w + root_b) + agg) + bias, 0),     agg(n, .) = sum over edges (r, e) with dst(r, e) = n of msg(r, e, .),

  The kernel gathers the rows x[src], scales row (r, e) by the edge weight ew(r, e) on the host, multiplies by the
  relation's weight matrix in a first kernel region over (relation, edge tile), adds the messages into their target
  rows on the host, and forms the root product, the additions and the clamp in a second kernel region over blocks of
  node rows. The reference multiplies the gathered rows by the weights first and scales the product's rows by the edge
  weights afterwards. Over the extended reals the two agree when the node features, the edge weights and the relation
  weights are real numbers, which the precondition says: the edge weight is a common factor of the terms of a finite
  sum of products of reals. Everything else (the gather, the scatter that adds the messages, the root product, the
  bias rows, the clamp) is the same function of the same arrays on both sides, the formats' changes being the identity.

  The three programs' runs terminate with their arguments unchanged (the frames); the kernel's idealization rewrote
  no operation (nothing to preserve); and the two idealized programs end with equal results (algebraic): the kernel's
  result buffer is read off its run as the root layer of what the regions find, the reference's off its run as the
  composition of its host operations, and the two terms are one function of the arguments.
-/
import proofs.«130583_j69647189672496_2_alg».proof.Defs
import proofs.«130583_j69647189672496_2_alg».proof.Proof.Gen.Kernel
import proofs.«130583_j69647189672496_2_alg».proof.Proof.Gen.Kernel.Skeleton
import proofs.«130583_j69647189672496_2_alg».proof.Proof.Gen.Kernel.Launch
import proofs.«130583_j69647189672496_2_alg».proof.Proof.Gen.Kernel.Points
import proofs.«130583_j69647189672496_2_alg».proof.Proof.Gen.Kernel.Frame
import proofs.«130583_j69647189672496_2_alg».proof.Proof.Gen.KernelIdeal
import proofs.«130583_j69647189672496_2_alg».proof.Proof.Gen.KernelIdeal.Skeleton
import proofs.«130583_j69647189672496_2_alg».proof.Proof.Gen.KernelIdeal.Launch
import proofs.«130583_j69647189672496_2_alg».proof.Proof.Gen.KernelIdeal.Points
import proofs.«130583_j69647189672496_2_alg».proof.Proof.Gen.KernelIdeal.Frame
import proofs.«130583_j69647189672496_2_alg».proof.Proof.Gen.ReferenceIdeal
import proofs.«130583_j69647189672496_2_alg».proof.Proof.Gen.Pre_finite_inputs
import proofs.«130583_j69647189672496_2_alg».proof.Proof.Gen.ReferenceIdeal.Run
import proofs.«130583_j69647189672496_2_alg».proof.Proof.Gen.ReferenceIdeal.Read
import proofs.«130583_j69647189672496_2_alg».proof.Proof.KernelRun
import proofs.«130583_j69647189672496_2_alg».proof.Proof.HostValues
import proofs.«130583_j69647189672496_2_alg».proof.Proof.Finite
import proofs.«130583_j69647189672496_2_alg».proof.Proof.Bridge
import Idealize.ShloMosaic.Adequacy
import Idealize.ShloMosaic.Init

noncomputable section

namespace Cert.Proof

open Idealize.ShloMosaic Idealize.ShloMosaic.TcCoe Idealize.SL.Sem

/-- The kernel's run terminates with its arguments unchanged. -/
theorem frame_kernel : Cert.frame_Kernel := fun m ρ _ => Cert.Kernel.Gen.frame m ρ

/-- The idealized kernel's run terminates with its arguments unchanged. -/
theorem frame_kernel_ideal : Cert.frame_KernelIdeal := fun m ρ _ => Cert.KernelIdeal.Gen.frame m ρ

/-- The idealized reference's run terminates with its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the root layer of the arguments with the
    kernel's summed messages: the kernel by its run and the regions' whole-array values, the reference by its run and
    the law that takes the edge weight out of the relation product's sum, which the precondition licenses. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.HostValues.result_eq m ρ c), (h c).2⟩)
      (Cert.KernelIdeal.RunValue.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨hx0, hx3, hx4⟩ := Cert.Finite.real_entries _ _ _ _ _ _ _ _ (hpre c)
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.ReferenceIdeal.Read.val_main_v24_eq _ _ _ _ _ _ _ _).trans
    (Cert.Bridge.reference_eq _ _ _ _ _ _ _ _ hx0 hx3 hx4)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
